-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S64x64 : Shape := ⟨2, ![64, 64]⟩
abbrev S8x64 : Shape := ⟨2, ![8, 64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  main_v18

def fn {F : FTy → Type} [FloatOps F] (main_arg0 : FVec F S500000x64 .f32) (main_arg1 : FVec F S500000x64 .f32) (main_arg2 : FVec F S64x64 .f32) (main_arg3 : FVec F S8x64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_v13 main_v16
-- ==== Kernel.lean ====
abbrev S500000x64 : Shape := ⟨2, ![500000, 64]⟩
abbrev S64x64 : Shape := ⟨2, ![64, 64]⟩
abbrev S8x64 : Shape := ⟨2, ![8, 64]⟩
abbrev S8x64x1 : Shape := ⟨3, ![8, 64, 1]⟩
abbrev S1x64x64 : Shape := ⟨3, ![1, 64, 64]⟩
abbrev S8x64x64 : Shape := ⟨3, ![8, 64, 64]⟩
abbrev S8x1x64 : Shape := ⟨3, ![8, 1, 64]⟩
abbrev S500000x8 : Shape := ⟨2, ![500000, 8]⟩
abbrev S10000x64 : Shape := ⟨2, ![10000, 64]⟩
abbrev S10000x8 : Shape := ⟨2, ![10000, 8]⟩
abbrev S10000 : Shape := ⟨1, ![10000]⟩
abbrev S10000x1 : Shape := ⟨2, ![10000, 1]⟩
abbrev S8x500000 : Shape := ⟨2, ![8, 500000]⟩

abbrev nBuf : Space → Nat
  | .hbm => 15
  | .vmem => 7
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S64x64, .f32⟩
  | .hbm, ⟨3, _⟩ => ⟨S8x64, .f32⟩
  | .hbm, ⟨4, _⟩ => ⟨S8x64x1, .f32⟩
  | .hbm, ⟨5, _⟩ => ⟨S1x64x64, .f32⟩
  | .hbm, ⟨6, _⟩ => ⟨S8x64x64, .f32⟩
  | .hbm, ⟨7, _⟩ => ⟨S8x64x64, .f32⟩
  | .hbm, ⟨8, _⟩ => ⟨S8x64x64, .f32⟩
  | .hbm, ⟨9, _⟩ => ⟨S8x1x64, .f32⟩
  | .hbm, ⟨10, _⟩ => ⟨S8x64x64, .f32⟩
  | .hbm, ⟨11, _⟩ => ⟨S8x64x64, .f32⟩
  | .hbm, ⟨12, _⟩ => ⟨S8x64x64, .bf16⟩
  | .hbm, ⟨13, _⟩ => ⟨S500000x8, .f32⟩
  | .hbm, ⟨14, _⟩ => ⟨S8x500000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S8x64x64, .bf16⟩
  | .local _ .vmem, ⟨5, _⟩ => ⟨S10000x8, .f32⟩
  | .local _ .vmem, ⟨6, _⟩ => ⟨S10000x8, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8x64_S8x64x1_0_1 : S8x64.BroadcastsInDim S8x64x1 (![0, 1] : Fin 2 → Fin S8x64x1.rank)
  bcast_S64x64_S1x64x64_1_2 : S64x64.BroadcastsInDim S1x64x64 (![1, 2] : Fin 2 → Fin S1x64x64.rank)
  bcast_S8x64x1_S8x64x64_0_1_2 : S8x64x1.BroadcastsInDim S8x64x64 (![0, 1, 2] : Fin 3 → Fin S8x64x64.rank)
  bcast_S1x64x64_S8x64x64_0_1_2 : S1x64x64.BroadcastsInDim S8x64x64 (![0, 1, 2] : Fin 3 → Fin S8x64x64.rank)
  bcast_S8x64_S8x1x64_0_2 : S8x64.BroadcastsInDim S8x1x64 (![0, 2] : Fin 2 → Fin S8x1x64.rank)
  bcast_S8x1x64_S8x64x64_0_1_2 : S8x1x64.BroadcastsInDim S8x64x64 (![0, 1, 2] : Fin 3 → Fin S8x64x64.rank)
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  reduces_S10000x64_S10000 : S10000x64.Reduces [1] S10000
  shapeCasts_S10000_S10000x1 : S10000.ShapeCasts S10000x1
  inb_S8x64x64_S1x64x64_1_0_0 : ∀ a, (![1, 0, 0] : Fin 3 → Nat) a + S1x64x64.size a ≤ S8x64x64.size a
  inb_S8x64x64_S1x64x64_2_0_0 : ∀ a, (![2, 0, 0] : Fin 3 → Nat) a + S1x64x64.size a ≤ S8x64x64.size a
  inb_S8x64x64_S1x64x64_3_0_0 : ∀ a, (![3, 0, 0] : Fin 3 → Nat) a + S1x64x64.size a ≤ S8x64x64.size a
  inb_S8x64x64_S1x64x64_4_0_0 : ∀ a, (![4, 0, 0] : Fin 3 → Nat) a + S1x64x64.size a ≤ S8x64x64.size a
  inb_S8x64x64_S1x64x64_5_0_0 : ∀ a, (![5, 0, 0] : Fin 3 → Nat) a + S1x64x64.size a ≤ S8x64x64.size a
  inb_S8x64x64_S1x64x64_6_0_0 : ∀ a, (![6, 0, 0] : Fin 3 → Nat) a + S1x64x64.size a ≤ S8x64x64.size a
  inb_S8x64x64_S1x64x64_7_0_0 : ∀ a, (![7, 0, 0] : Fin 3 → Nat) a + S1x64x64.size a ≤ S8x64x64.size a
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  inb_S10000x8_S10000x8_0_0 : ∀ a, (![0, 0] : Fin 2 → Nat) a + S10000x8.size a ≤ S10000x8.size a
  h_S10000x8 : 0 < S10000x8.numel
  transposes_S500000x8_S8x500000_1_0 : S500000x8.Transposes [1, 0] S8x500000
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S500000x64.size a
  hwx0_1 : ∀ i : grid0.Coords, EltTy.bits .f32 = 32 ∨ (Rect.block (s := S500000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S8x64x64.size a
  hwx0_2 : ∀ i : grid0.Coords, EltTy.bits .bf16 = 32 ∨ (Rect.block (s := S8x64x64) S8x64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x8.size a ≤ S500000x8.size a
  hwx0_3 : ∀ i : grid0.Coords, EltTy.bits .f32 = 32 ∨ (Rect.block (s := S500000x8) S10000x8.size (cc0_transform_3 i) (hinb0_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x64 : Shape := ⟨2, ![500000, 64]⟩
abbrev S64x64 : Shape := ⟨2, ![64, 64]⟩
abbrev S8x64 : Shape := ⟨2, ![8, 64]⟩
abbrev S1x64 : Shape := ⟨2, ![1, 64]⟩
abbrev S64 : Shape := ⟨1, ![64]⟩
abbrev S64x1 : Shape := ⟨2, ![64, 1]⟩
abbrev S_ : Shape := ⟨0, ![]⟩
abbrev S500000 : Shape := ⟨1, ![500000]⟩
abbrev S1x500000 : Shape := ⟨2, ![1, 500000]⟩
abbrev S8x500000 : Shape := ⟨2, ![8, 500000]⟩

abbrev nBuf : Space → Nat
  | .hbm => 173
  | .vmem => 0
  | .smem => 0
  | _ => 0

abbrev hbmTy0_0 (i : Nat) : BufTy := match i % 128 with
  | 0 => ⟨S500000x64, .f32⟩
  | 1 => ⟨S500000x64, .f32⟩
  | 2 => ⟨S64x64, .f32⟩
  | 3 => ⟨S8x64, .f32⟩
  | 4 => ⟨S1x64, .f32⟩
  | 5 => ⟨S64, .f32⟩
  | 6 => ⟨S64x1, .f32⟩
  | 7 => ⟨S64x64, .f32⟩
  | 8 => ⟨S64x64, .f32⟩
  | 9 => ⟨S1x64, .f32⟩
  | 10 => ⟨S64x64, .f32⟩
  | 11 => ⟨S64x64, .f32⟩
  | 12 => ⟨S500000x64, .f32⟩
  | 13 => ⟨S500000x64, .f32⟩
  | 14 => ⟨S_, .f32⟩
  | 15 => ⟨S500000, .f32⟩
  | 16 => ⟨S500000, .f32⟩
  | 17 => ⟨S500000, .f32⟩
  | 18 => ⟨S_, .f32⟩
  | 19 => ⟨S500000, .f32⟩
  | 20 => ⟨S500000, .f32⟩
  | 21 => ⟨S_, .f32⟩
  | 22 => ⟨S500000, .f32⟩
  | 23 => ⟨S500000, .f32⟩
  | 24 => ⟨S1x64, .f32⟩
  | 25 => ⟨S64, .f32⟩
  | 26 => ⟨S64x1, .f32⟩
  | 27 => ⟨S64x64, .f32⟩
  | 28 => ⟨S64x64, .f32⟩
  | 29 => ⟨S1x64, .f32⟩
  | 30 => ⟨S64x64, .f32⟩
  | 31 => ⟨S64x64, .f32⟩
  | 32 => ⟨S500000x64, .f32⟩
  | 33 => ⟨S500000x64, .f32⟩
  | 34 => ⟨S_, .f32⟩
  | 35 => ⟨S500000, .f32⟩
  | 36 => ⟨S500000, .f32⟩
  | 37 => ⟨S500000, .f32⟩
  | 38 => ⟨S_, .f32⟩
  | 39 => ⟨S500000, .f32⟩
  | 40 => ⟨S500000, .f32⟩
  | 41 => ⟨S_, .f32⟩
  | 42 => ⟨S500000, .f32⟩
  | 43 => ⟨S500000, .f32⟩
  | 44 => ⟨S1x64, .f32⟩
  | 45 => ⟨S64, .f32⟩
  | 46 => ⟨S64x1, .f32⟩
  | 47 => ⟨S64x64, .f32⟩
  | 48 => ⟨S64x64, .f32⟩
  | 49 => ⟨S1x64, .f32⟩
  | 50 => ⟨S64x64, .f32⟩
  | 51 => ⟨S64x64, .f32⟩
  | 52 => ⟨S500000x64, .f32⟩
  | 53 => ⟨S500000x64, .f32⟩
  | 54 => ⟨S_, .f32⟩
  | 55 => ⟨S500000, .f32⟩
  | 56 => ⟨S500000, .f32⟩
  | 57 => ⟨S500000, .f32⟩
  | 58 => ⟨S_, .f32⟩
  | 59 => ⟨S500000, .f32⟩
  | 60 => ⟨S500000, .f32⟩
  | 61 => ⟨S_, .f32⟩
  | 62 => ⟨S500000, .f32⟩
  | 63 => ⟨S500000, .f32⟩
  | 64 => ⟨S1x64, .f32⟩
  | 65 => ⟨S64, .f32⟩
  | 66 => ⟨S64x1, .f32⟩
  | 67 => ⟨S64x64, .f32⟩
  | 68 => ⟨S64x64, .f32⟩
  | 69 => ⟨S1x64, .f32⟩
  | 70 => ⟨S64x64, .f32⟩
  | 71 => ⟨S64x64, .f32⟩
  | 72 => ⟨S500000x64, .f32⟩
  | 73 => ⟨S500000x64, .f32⟩
  | 74 => ⟨S_, .f32⟩
  | 75 => ⟨S500000, .f32⟩
  | 76 => ⟨S500000, .f32⟩
  | 77 => ⟨S500000, .f32⟩
  | 78 => ⟨S_, .f32⟩
  | 79 => ⟨S500000, .f32⟩
  | 80 => ⟨S500000, .f32⟩
  | 81 => ⟨S_, .f32⟩
  | 82 => ⟨S500000, .f32⟩
  | 83 => ⟨S500000, .f32⟩
  | 84 => ⟨S1x64, .f32⟩
  | 85 => ⟨S64, .f32⟩
  | 86 => ⟨S64x1, .f32⟩
  | 87 => ⟨S64x64, .f32⟩
  | 88 => ⟨S64x64, .f32⟩
  | 89 => ⟨S1x64, .f32⟩
  | 90 => ⟨S64x64, .f32⟩
  | 91 => ⟨S64x64, .f32⟩
  | 92 => ⟨S500000x64, .f32⟩
  | 93 => ⟨S500000x64, .f32⟩
  | 94 => ⟨S_, .f32⟩
  | 95 => ⟨S500000, .f32⟩
  | 96 => ⟨S500000, .f32⟩
  | 97 => ⟨S500000, .f32⟩
  | 98 => ⟨S_, .f32⟩
  | 99 => ⟨S500000, .f32⟩
  | 100 => ⟨S500000, .f32⟩
  | 101 => ⟨S_, .f32⟩
  | 102 => ⟨S500000, .f32⟩
  | 103 => ⟨S500000, .f32⟩
  | 104 => ⟨S1x64, .f32⟩
  | 105 => ⟨S64, .f32⟩
  | 106 => ⟨S64x1, .f32⟩
  | 107 => ⟨S64x64, .f32⟩
  | 108 => ⟨S64x64, .f32⟩
  | 109 => ⟨S1x64, .f32⟩
  | 110 => ⟨S64x64, .f32⟩
  | 111 => ⟨S64x64, .f32⟩
  | 112 => ⟨S500000x64, .f32⟩
  | 113 => ⟨S500000x64, .f32⟩
  | 114 => ⟨S_, .f32⟩
  | 115 => ⟨S500000, .f32⟩
  | 116 => ⟨S500000, .f32⟩
  | 117 => ⟨S500000, .f32⟩
  | 118 => ⟨S_, .f32⟩
  | 119 => ⟨S500000, .f32⟩
  | 120 => ⟨S500000, .f32⟩
  | 121 => ⟨S_, .f32⟩
  | 122 => ⟨S500000, .f32⟩
  | 123 => ⟨S500000, .f32⟩
  | 124 => ⟨S1x64, .f32⟩
  | 125 => ⟨S64, .f32⟩
  | 126 => ⟨S64x1, .f32⟩
  | 127 => ⟨S64x64, .f32⟩
  | _ => ⟨S500000x64, .f32⟩

abbrev hbmTy0_1 (i : Nat) : BufTy := match i % 128 with
  | 0 => ⟨S64x64, .f32⟩
  | 1 => ⟨S1x64, .f32⟩
  | 2 => ⟨S64x64, .f32⟩
  | 3 => ⟨S64x64, .f32⟩
  | 4 => ⟨S500000x64, .f32⟩
  | 5 => ⟨S500000x64, .f32⟩
  | 6 => ⟨S_, .f32⟩
  | 7 => ⟨S500000, .f32⟩
  | 8 => ⟨S500000, .f32⟩
  | 9 => ⟨S500000, .f32⟩
  | 10 => ⟨S_, .f32⟩
  | 11 => ⟨S500000, .f32⟩
  | 12 => ⟨S500000, .f32⟩
  | 13 => ⟨S_, .f32⟩
  | 14 => ⟨S500000, .f32⟩
  | 15 => ⟨S500000, .f32⟩
  | 16 => ⟨S1x64, .f32⟩
  | 17 => ⟨S64, .f32⟩
  | 18 => ⟨S64x1, .f32⟩
  | 19 => ⟨S64x64, .f32⟩
  | 20 => ⟨S64x64, .f32⟩
  | 21 => ⟨S1x64, .f32⟩
  | 22 => ⟨S64x64, .f32⟩
  | 23 => ⟨S64x64, .f32⟩
  | 24 => ⟨S500000x64, .f32⟩
  | 25 => ⟨S500000x64, .f32⟩
  | 26 => ⟨S_, .f32⟩
  | 27 => ⟨S500000, .f32⟩
  | 28 => ⟨S500000, .f32⟩
  | 29 => ⟨S500000, .f32⟩
  | 30 => ⟨S_, .f32⟩
  | 31 => ⟨S500000, .f32⟩
  | 32 => ⟨S500000, .f32⟩
  | 33 => ⟨S_, .f32⟩
  | 34 => ⟨S500000, .f32⟩
  | 35 => ⟨S500000, .f32⟩
  | 36 => ⟨S1x500000, .f32⟩
  | 37 => ⟨S1x500000, .f32⟩
  | 38 => ⟨S1x500000, .f32⟩
  | 39 => ⟨S1x500000, .f32⟩
  | 40 => ⟨S1x500000, .f32⟩
  | 41 => ⟨S1x500000, .f32⟩
  | 42 => ⟨S1x500000, .f32⟩
  | 43 => ⟨S1x500000, .f32⟩
  | 44 => ⟨S8x500000, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_cst_13 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_14 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_cst_16 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_17 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_18 : Ref sig .tc := ⟨.hbm, 138, rfl⟩
abbrev main_v115 : Ref sig .tc := ⟨.hbm, 139, rfl⟩
abbrev main_v116 : Ref sig .tc := ⟨.hbm, 140, rfl⟩
abbrev main_cst_19 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_20 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_21 : Ref sig .tc := ⟨.hbm, 158, rfl⟩
abbrev main_v132 : Ref sig .tc := ⟨.hbm, 159, rfl⟩
abbrev main_v133 : Ref sig .tc := ⟨.hbm, 160, rfl⟩
abbrev main_cst_22 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩

abbrev nD : Nat := 1
abbrev τ : Topo := Topo.v7x

variable {F : FTy → Type} [FloatOps F]

class Facts₀ : Prop where
  slices_S8x64_S1x64_0_0 : S8x64.Slices ![0, 0] S1x64
  shapeCasts_S1x64_S64 : S1x64.ShapeCasts S64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S500000x64_S500000_d1 : S500000x64.ReducesTo [1] S500000
  h_S_ : 0 < S_.numel
  bcast_S_S500000 : S_.BroadcastsInDim S500000 (![] : Fin 0 → Fin S500000.rank)
  slices_S8x64_S1x64_1_0 : S8x64.Slices ![1, 0] S1x64
  slices_S8x64_S1x64_2_0 : S8x64.Slices ![2, 0] S1x64
  slices_S8x64_S1x64_3_0 : S8x64.Slices ![3, 0] S1x64
  slices_S8x64_S1x64_4_0 : S8x64.Slices ![4, 0] S1x64
  slices_S8x64_S1x64_5_0 : S8x64.Slices ![5, 0] S1x64
  slices_S8x64_S1x64_6_0 : S8x64.Slices ![6, 0] S1x64
  slices_S8x64_S1x64_7_0 : S8x64.Slices ![7, 0] S1x64
  bcast_S500000_S1x500000_1 : S500000.BroadcastsInDim S1x500000 (![1] : Fin 1 → Fin S1x500000.rank)
  concatenates_S1x500000_S1x500000_S1x500000_S1x500000_S1x500000_S1x500000_S1x500000_S1x500000_S8x500000_d0 : Shape.Concatenates [S1x500000, S1x500000, S1x500000, S1x500000, S1x500000, S1x500000, S1x500000, S1x500000] S8x500000 0
  dot_S500000x64_S64x64_S500000x64_1_0_0_1_n_n_wf : DotDims.WF S500000x64 S64x64 S500000x64 [1] [0] [0] [1] [] []

variable [Facts₀]

def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibRowScore.lean ====
/-
  GENERAL LEMMAS: a row-wise bilinear score,
      rowScore l w c p  =  ∑_b (∑_a l(p, a) · w(a, b)) · c(p, b),
  for an `[n, K]` array l, a `[K, N]` matrix w and an `[n, N]` array c — "multiply the rows by a matrix, then take each
  product row's dot with the matching row of c" — as a vector program and as a host program spell it, on the extended reals:
  • `lane_sum_apply`: the lane sum, from the zero word, of (a matmul into the zero accumulator) times c, read at p;
  • `column_apply`: the same sum kept as an `[n, 1]` column, read at (p, u);
  • `host_sum_apply`: the host's add-reduce along axis 1, from the zero scalar, of (the host's dot_general) times c, read at p.
  All three are `rowScore l w c p`: the matrix products are the plain sums over the contracted axis, the two reductions the
  sums over the lanes, and the zero they start from adds nothing.
-/
import proofs.«163795_j6305011990646_2_alg».proof.Proof.LibKeepdims
import proofs.«163795_j6305011990646_2_alg».proof.Proof.LibPlainDot
import Idealize.ShloMosaic.PureOps.Ideal.Laws
import Idealize.ShloMosaic.Lib.ValueIdx

noncomputable section

open scoped BigOperators

namespace Idealize.ShloMosaic.RowScore

open Idealize.ShloMosaic Idealize.ShloMosaic.ValueIdx

variable {n K N : ℕ}

/-- The score of row p: ∑_b (∑_a l(p, a) · w(a, b)) · c(p, b). -/
def rowScore (l : (⟨2, ![n, K]⟩ : Shape).Idx → EReal) (w : (⟨2, ![K, N]⟩ : Shape).Idx → EReal)
    (c : (⟨2, ![n, N]⟩ : Shape).Idx → EReal) (p : Fin n) : EReal :=
  ∑ b : Fin N, (∑ a : Fin K, l (ix2 p a) * w (ix2 a b)) * c (ix2 p b)

/-- A vector program's form: the lane sum of (l · w, accumulated from zero) ∘ c at row p. -/
theorem lane_sum_apply {φ₁ φ₂ : FTy} (D : DotDims ⟨2, ![n, K]⟩ ⟨2, ![K, N]⟩ ⟨2, ![n, N]⟩) (hD : D = DotDims.plain n K N)
    (prec : Option ContractPrecision) (l : FVec Ideal ⟨2, ![n, K]⟩ φ₁) (w : FVec Ideal ⟨2, ![K, N]⟩ φ₂)
    (c : FVec Ideal ⟨2, ![n, N]⟩ .f32) (h : (⟨2, ![n, N]⟩ : Shape).Reduces [1] ⟨1, ![n]⟩) (hφ : FKind.Formats .f32)
    (hacc : (0x00000000#32 : BitVec 32) = FKind.add.neutral .f32 hφ) (p : Fin n) :
    multiReduction .add [1] ⟨1, ![n]⟩
        (mulf (matmul D prec l w (constant (F := Ideal) ⟨2, ![n, N]⟩ .f32 0x00000000#32)) c) 0x00000000#32 h hφ hacc (ix1 p)
      = rowScore l w c p := by
  rw [multiReduction_add_axis1_apply]
  refine Finset.sum_congr rfl fun b _ => ?_
  rw [mulf_apply, PlainDot.matmul_zero_apply D hD]
  rfl

/-- The same with the sum kept as a column: at (p, u), whatever the unit coordinate. -/
theorem column_apply {φ₁ φ₂ : FTy} (D : DotDims ⟨2, ![n, K]⟩ ⟨2, ![K, N]⟩ ⟨2, ![n, N]⟩) (hD : D = DotDims.plain n K N)
    (prec : Option ContractPrecision) (l : FVec Ideal ⟨2, ![n, K]⟩ φ₁) (w : FVec Ideal ⟨2, ![K, N]⟩ φ₂)
    (c : FVec Ideal ⟨2, ![n, N]⟩ .f32) (h : (⟨2, ![n, N]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction .add [1] ⟨1, ![n]⟩
        (mulf (matmul D prec l w (constant (F := Ideal) ⟨2, ![n, N]⟩ .f32 0x00000000#32)) c) 0x00000000#32 h hφ hacc) hc (ix2 p u)
      = rowScore l w c p := by
  rw [shapeCast_a_a1_apply]
  exact lane_sum_apply D hD prec l w c h hφ hacc p

/-- A host program's form: the add-reduce along axis 1, from the zero scalar, of (l · w) ∘ c at row p. -/
theorem host_sum_apply {φ₁ φ₂ : FTy} (D : DotDims ⟨2, ![n, K]⟩ ⟨2, ![K, N]⟩ ⟨2, ![n, N]⟩) (hD : D = DotDims.plain n K N)
    (prec : Option ContractPrecision) (l : FVec Ideal ⟨2, ![n, K]⟩ φ₁) (w : FVec Ideal ⟨2, ![K, N]⟩ φ₂)
    (c : FVec Ideal ⟨2, ![n, N]⟩ .f32) (h' : (⟨2, ![n, N]⟩ : Shape).ReducesTo [1] ⟨1, ![n]⟩)
    (h : (⟨2, ![n, N]⟩ : Shape).Reduces [1] ⟨1, ![n]⟩) (hu : 0 < (⟨0, ![]⟩ : Shape).numel) (p : Fin n) :
    Host.reduceAdd (mulf (Host.dotGeneral D prec l w) c) (constant (F := Ideal) ⟨0, ![]⟩ .f32 0x00000000#32) h' hu (ix1 p)
      = rowScore l w c p := by
  simp only [Host.reduceAdd, Ideal.hostReduceAdd_def]
  rw [Ideal.hostReduceAdd_single h' h, constant_apply, Ideal.ofBits_zero_f32, zero_add]
  refine Finset.sum_congr rfl fun (b : Fin N) _ => ?_
  have e : h.lift (ix1 p) b = ix2 p b := funext fun a => by
    match a with
    | ⟨0, _⟩ => exact Fin.ext rfl
    | ⟨1, _⟩ => exact Fin.ext rfl
  refine (congrArg (mulf (Host.dotGeneral D prec l w) c) e).trans ?_
  rw [mulf_apply, PlainDot.hostDot_apply D hD]
  rfl

end Idealize.ShloMosaic.RowScore

end
-- ==== Proof.LibConcatUnit.lean ====
/-
  GENERAL LEMMAS: eight rank-2 pieces of unit extent joined along an axis, read at an index given by coordinates —
  what `concatenate([c₀, …, c₇], axis)` of eight columns `[a, 1]` (axis 1) or of eight rows `[1, n]` (axis 0) holds.
  • `concat8_cols_apply`: the `[a, 8]` array at `(p, k)` is column `k` at `(p, 0)`;
  • `concat8_rows_apply`: the `[8, n]` array at `(k, p)` is row `k` at `(0, p)`.
  Both are the library's reading of N unit pieces of one shape (the piece is the one the axis coordinate names, the other
  coordinate is kept), with the literal eight-element list recognised as the list of a function on `Fin 8`.
-/
import Idealize.ShloMosaic.Lib.ValueIdx
import Idealize.ShloMosaic.Lib.Pipeline.Value

noncomputable section

namespace Idealize.ShloMosaic.ValueIdx

open Idealize.ShloMosaic

variable {α : Type}

/-- Eight columns `[a, 1]` side by side: entry `(p, k)` of the `[a, 8]` array is entry `p` of column `k`. -/
theorem concat8_cols_apply {a : ℕ} (f : Fin 8 → ((⟨2, ![a, 1]⟩ : Shape).Idx → α))
    (h : Shape.Concatenates (([⟨⟨2, ![a, 1]⟩, f 0⟩, ⟨⟨2, ![a, 1]⟩, f 1⟩, ⟨⟨2, ![a, 1]⟩, f 2⟩, ⟨⟨2, ![a, 1]⟩, f 3⟩, ⟨⟨2, ![a, 1]⟩, f 4⟩, ⟨⟨2, ![a, 1]⟩, f 5⟩, ⟨⟨2, ![a, 1]⟩, f 6⟩, ⟨⟨2, ![a, 1]⟩, f 7⟩] : List ((s : Shape) × (s.Idx → α))).map (·.1)) ⟨2, ![a, 8]⟩ 1)
    (p : Fin a) (k : Fin 8) :
    concatenate ⟨2, ![a, 8]⟩ 1 [⟨⟨2, ![a, 1]⟩, f 0⟩, ⟨⟨2, ![a, 1]⟩, f 1⟩, ⟨⟨2, ![a, 1]⟩, f 2⟩, ⟨⟨2, ![a, 1]⟩, f 3⟩, ⟨⟨2, ![a, 1]⟩, f 4⟩, ⟨⟨2, ![a, 1]⟩, f 5⟩, ⟨⟨2, ![a, 1]⟩, f 6⟩, ⟨⟨2, ![a, 1]⟩, f 7⟩] h (ix2 p k) = f k (ix2 p (0 : Fin 1)) := by
  refine concatenate_ofFn_unit_apply (t := ⟨2, ![a, 8]⟩) (s₁ := ⟨2, ![a, 1]⟩) 1 f h rfl rfl (ix2 p k) k rfl
    (ix2 p (0 : Fin 1)) fun b hb => ?_
  match b with
  | ⟨0, _⟩ => rfl
  | ⟨1, _⟩ => exact absurd rfl hb

/-- Eight rows `[1, n]` stacked: entry `(k, p)` of the `[8, n]` array is entry `p` of row `k`. -/
theorem concat8_rows_apply {n : ℕ} (f : Fin 8 → ((⟨2, ![1, n]⟩ : Shape).Idx → α))
    (h : Shape.Concatenates (([⟨⟨2, ![1, n]⟩, f 0⟩, ⟨⟨2, ![1, n]⟩, f 1⟩, ⟨⟨2, ![1, n]⟩, f 2⟩, ⟨⟨2, ![1, n]⟩, f 3⟩, ⟨⟨2, ![1, n]⟩, f 4⟩, ⟨⟨2, ![1, n]⟩, f 5⟩, ⟨⟨2, ![1, n]⟩, f 6⟩, ⟨⟨2, ![1, n]⟩, f 7⟩] : List ((s : Shape) × (s.Idx → α))).map (·.1)) ⟨2, ![8, n]⟩ 0)
    (k : Fin 8) (p : Fin n) :
    concatenate ⟨2, ![8, n]⟩ 0 [⟨⟨2, ![1, n]⟩, f 0⟩, ⟨⟨2, ![1, n]⟩, f 1⟩, ⟨⟨2, ![1, n]⟩, f 2⟩, ⟨⟨2, ![1, n]⟩, f 3⟩, ⟨⟨2, ![1, n]⟩, f 4⟩, ⟨⟨2, ![1, n]⟩, f 5⟩, ⟨⟨2, ![1, n]⟩, f 6⟩, ⟨⟨2, ![1, n]⟩, f 7⟩] h (ix2 k p) = f k (ix2 (0 : Fin 1) p) := by
  refine concatenate_ofFn_unit_apply (t := ⟨2, ![8, n]⟩) (s₁ := ⟨2, ![1, n]⟩) 0 f h rfl rfl (ix2 k p) k rfl
    (ix2 (0 : Fin 1) p) fun b hb => ?_
  match b with
  | ⟨0, _⟩ => exact absurd rfl hb
  | ⟨1, _⟩ => rfl

end Idealize.ShloMosaic.ValueIdx

end
-- ==== Proof.Spec.lean ====
/-
  The function both programs compute, on the extended reals.

  There are eight relations. Relation k scales the rows and the columns of one 64×64 interaction matrix g by the k-th
  diagonal d_k:   M_k(a, b) = (d(k, a) · g(a, b)) · d(k, b).
  The score of edge n under relation k is the bilinear form of the edge's row vector and column vector through M_k,
  summed in the order   ∑_b (∑_a row(n, a) · M_k(a, b)) · col(n, b),
  and the result at (k, n) is the logistic function 1 / (1 + e^(−score)) of it.

  `score` is stated for any number of edges, so that it reads both a block of edges and the whole edge list.
-/
import Idealize.ShloMosaic.PureOps.Ideal
import Idealize.ShloMosaic.Lib.ValueIdx

noncomputable section

open scoped BigOperators

namespace Cert.Dedicom

open Idealize.ShloMosaic Idealize.ShloMosaic.ValueIdx

/-- The logistic function, 1 / (1 + e^(−x)), with the unit written as the word both programs print for it. -/
def logistic (x : EReal) : EReal :=
  Ideal.div (Ideal.ofBits .f32 0x3F800000#32) (Ideal.ofBits .f32 0x3F800000#32 + Ideal.exp (-x))

/-- The eight scaled interaction matrices: entry (k, a, b) is (d(k, a) · g(a, b)) · d(k, b). -/
def relMatrix (g : (⟨2, ![64, 64]⟩ : Shape).Idx → EReal) (d : (⟨2, ![8, 64]⟩ : Shape).Idx → EReal) :
    (⟨3, ![8, 64, 64]⟩ : Shape).Idx → EReal :=
  fun i => d (ix2 (i 0) (i 1)) * g (ix2 (i 1) (i 2)) * d (ix2 (i 0) (i 2))

/-- Edge n's score under relation k: ∑_b (∑_a row(n, a) · M(k, a, b)) · col(n, b). -/
def score {N : ℕ} (row col : (⟨2, ![N, 64]⟩ : Shape).Idx → EReal) (M : (⟨3, ![8, 64, 64]⟩ : Shape).Idx → EReal)
    (n : Fin N) (k : Fin 8) : EReal :=
  ∑ b : Fin 64, (∑ a : Fin 64, row (ix2 n a) * M (ix3 k a b)) * col (ix2 n b)

/-- The score depends on the edge's own row and column vectors only: two edge lists that agree on them give one score. -/
theorem score_congr {N N' : ℕ} (row col : (⟨2, ![N, 64]⟩ : Shape).Idx → EReal)
    (row' col' : (⟨2, ![N', 64]⟩ : Shape).Idx → EReal) (M : (⟨3, ![8, 64, 64]⟩ : Shape).Idx → EReal)
    (n : Fin N) (n' : Fin N') (k : Fin 8) (hr : ∀ a : Fin 64, row (ix2 n a) = row' (ix2 n' a))
    (hc : ∀ b : Fin 64, col (ix2 n b) = col' (ix2 n' b)) : score row col M n k = score row' col' M n' k := by
  unfold score
  refine Finset.sum_congr rfl fun b _ => ?_
  rw [hc b]
  exact congrArg (· * col' (ix2 n' b)) (Finset.sum_congr rfl fun a _ => by rw [hr a])

/-- The edge-by-relation array the kernel's region writes: entry (n, k) is the logistic of edge n's score under k. -/
def edgeMajor {N : ℕ} (row col : (⟨2, ![N, 64]⟩ : Shape).Idx → EReal) (M : (⟨3, ![8, 64, 64]⟩ : Shape).Idx → EReal) :
    (⟨2, ![N, 8]⟩ : Shape).Idx → EReal :=
  fun i => logistic (score row col M (i 0) (i 1))

/-- The result: entry (k, n) is the logistic of edge n's score under relation k, through the scaled matrices. -/
def result (row col : (⟨2, ![500000, 64]⟩ : Shape).Idx → EReal) (g : (⟨2, ![64, 64]⟩ : Shape).Idx → EReal)
    (d : (⟨2, ![8, 64]⟩ : Shape).Idx → EReal) : (⟨2, ![8, 500000]⟩ : Shape).Idx → EReal :=
  fun i => logistic (score row col (relMatrix g d) (i 1) (i 0))

end Cert.Dedicom

end
-- ==== Proof.BlockValue.lean ====
/-
  What the kernel body leaves in its output block, entry by entry.

  The body holds a block of 10000 edges: their row vectors x0, their column vectors x1 (both 10000×64), and all eight
  64×64 relation matrices x2 (8×64×64). For each relation k it multiplies the rows by the k-th matrix, multiplies the
  product entrywise by the column vectors, sums along the 64 lanes and keeps the sum as a 10000×1 column; the eight
  columns are laid side by side and the logistic function is applied entrywise. So entry (p, k) of the stored block is
      logistic (∑_b (∑_a x0(p, a) · x2(k, a, b)) · x1(p, b)),
  the logistic of edge p's score under relation k.
-/
import proofs.«163795_j6305011990646_2_alg».proof.Proof.Gen.KernelIdeal.Frame
import proofs.«163795_j6305011990646_2_alg».proof.Proof.LibRowScore
import proofs.«163795_j6305011990646_2_alg».proof.Proof.LibConcatUnit
import proofs.«163795_j6305011990646_2_alg».proof.Proof.Spec
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Dedicom

/-! ## One relation's column -/

/-- The column of lane sums for one relation matrix w (a 1×64×64 slab): rows times w, times the column vectors, summed
    along the lanes, kept as a 10000×1 column. -/
def column (v1 : FVec Ideal S10000x64 .bf16) (v2 : Vec Ideal S10000x64 .f32) (w : Vec Ideal S1x64x64 .bf16) :
    FVec Ideal S10000x1 .f32 :=
  shapeCast S10000x1 (multiReduction .add [1] S10000
    (mulf (matmul dot_S10000x64_S64x64_S10000x64_1_0_0_1_n_n none v1 (shapeCast S64x64 w shapeCasts_S1x64x64_S64x64 : FVec Ideal S64x64 .bf16)
      (constant S10000x64 .f32 0x00000000#32)) v2)
    0x00000000#32 reduces_S10000x64_S10000 (.inl rfl) rfl) shapeCasts_S10000_S10000x1

/-- Its entry p is ∑_b (∑_a v1(p, a) · w(0, a, b)) · v2(p, b). -/
theorem column_apply (v1 : FVec Ideal S10000x64 .bf16) (v2 : Vec Ideal S10000x64 .f32) (w : Vec Ideal S1x64x64 .bf16)
    (p : Fin 10000) (u : Fin 1) :
    column v1 v2 w (ix2 p u) = ∑ b : Fin 64, (∑ a : Fin 64, v1 (ix2 p a) * w (ix3 (0 : Fin 1) a b)) * v2 (ix2 p b) := by
  unfold column
  refine (RowScore.column_apply dot_S10000x64_S64x64_S10000x64_1_0_0_1_n_n rfl none v1 _ v2 reduces_S10000x64_S10000 (.inl rfl) rfl
    shapeCasts_S10000_S10000x1 p u).trans ?_
  unfold RowScore.rowScore
  refine Finset.sum_congr rfl fun b _ => ?_
  refine congrArg (· * v2 (ix2 p b)) (Finset.sum_congr rfl fun a _ => ?_)
  rw [shapeCast_1ab_ab_apply]

/-! ## The k-th relation matrix as the body loads it -/

/-- Slab k of the 8×64×64 array lies inside it. -/
theorem slab_inb (k : Fin 8) : ∀ a, (![k.val, 0, 0] : Fin 3 → ℕ) a + S1x64x64.size a ≤ S8x64x64.size a := fun a => by
  have hk := k.isLt
  match a with
  | ⟨0, _⟩ => show k.val + 1 ≤ 8; omega
  | ⟨1, _⟩ => show 0 + 64 ≤ 64; omega
  | ⟨2, _⟩ => show 0 + 64 ≤ 64; omega

/-- The rectangle of slab k: one matrix, all its rows and columns. -/
abbrev slabRect (k : Fin 8) : Rect S8x64x64 := Rect.unit (s := S8x64x64) ![k.val, 0, 0] S1x64x64.size (slab_inb k)

/-- Loading slab k reads matrix k. -/
theorem slab_apply (x2 : Vec Ideal S8x64x64 .bf16) (k : Fin 8) (a b : Fin 64) :
    View.ld x2 (slabRect k) (ix3 (0 : Fin 1) a b) = x2 (ix3 k a b) := by
  show x2 ((slabRect k).idx (ix3 (0 : Fin 1) a b)) = x2 (ix3 k a b)
  refine congrArg x2 (funext fun c => Fin.ext ?_)
  match c with
  | ⟨0, _⟩ => show k.val + 1 * 0 = k.val; omega
  | ⟨1, _⟩ => show 0 + 1 * a.val = a.val; omega
  | ⟨2, _⟩ => show 0 + 1 * b.val = b.val; omega

/-! ## The columns side by side, and the logistic function entrywise -/

/-- Eight columns laid side by side. -/
def sideBySide (cols : Fin 8 → FVec Ideal S10000x1 .f32) : FVec Ideal S10000x8 .f32 :=
  concatenate S10000x8 1 [⟨S10000x1, cols 0⟩, ⟨S10000x1, cols 1⟩, ⟨S10000x1, cols 2⟩, ⟨S10000x1, cols 3⟩, ⟨S10000x1, cols 4⟩, ⟨S10000x1, cols 5⟩, ⟨S10000x1, cols 6⟩, ⟨S10000x1, cols 7⟩] concatenates_S10000x1_S10000x1_S10000x1_S10000x1_S10000x1_S10000x1_S10000x1_S10000x1_S10000x8_d1

theorem sideBySide_apply (cols : Fin 8 → FVec Ideal S10000x1 .f32) (p : Fin 10000) (k : Fin 8) :
    sideBySide cols (ix2 p k) = cols k (ix2 p (0 : Fin 1)) :=
  concat8_cols_apply cols _ p k

/-- 1 / (1 + exp (0 − z)), entrywise, as the body spells it. -/
def squash (z : FVec Ideal S10000x8 .f32) : FVec Ideal S10000x8 .f32 :=
  divf (broadcast S10000x8 (Scalar.ofBits .f32 0x3F800000#32))
    (addf (broadcast S10000x8 (Scalar.ofBits .f32 0x3F800000#32))
      (exp (subf (broadcast S10000x8 (Scalar.ofBits .f32 0x00000000#32)) z)))

/-- Entrywise it is the logistic function: 0 − z is −z. -/
theorem squash_apply (z : FVec Ideal S10000x8 .f32) (i : S10000x8.Idx) : squash z i = logistic (z i) := by
  show Ideal.div (Ideal.ofBits .f32 0x3F800000#32)
      (Ideal.ofBits .f32 0x3F800000#32 + Ideal.exp (Ideal.ofBits .f32 0x00000000#32 - z i)) = logistic (z i)
  rw [Ideal.ofBits_zero_f32, zero_sub]
  rfl

/-! ## The stored block -/

theorem zeros2 : (![0, 0] : Fin 2 → Nat) = fun _ => 0 := funext fun a => by fin_cases a <;> rfl

/-- The body's stored value is the logistic of the eight columns side by side, column k made from slab k. -/
theorem payload_eq (x0 x1 : Vec Ideal S10000x64 .f32) (x2 : Vec Ideal S8x64x64 .bf16) :
    k0_pay1 (k0_pay2 x0) x1 (k0_pay3 x0 x1 (View.ld x2 r0_1)) (k0_pay4 x0 x1 (View.ld x2 r0_2))
        (k0_pay5 x0 x1 (View.ld x2 r0_3)) (k0_pay6 x0 x1 (View.ld x2 r0_4)) (k0_pay7 x0 x1 (View.ld x2 r0_5))
        (View.ld x2 r0_6) (View.ld x2 r0_7) (View.ld x2 r0_8)
      = squash (sideBySide fun k => column (k0_pay2 x0) x1 (View.ld x2 (slabRect k))) := rfl

/-- THE BLOCK: what the body leaves in the output window's buffer is, entry by entry, the logistic of each edge's score
    under each relation, from the block's own row vectors, column vectors and the eight matrices. -/
theorem stored_eq (x0 x1 : Vec Ideal S10000x64 .f32) (x2 : Vec Ideal S8x64x64 .bf16) :
    out0_3 x0 x1 x2 = edgeMajor x0 x1 x2 := by
  unfold out0_3
  rw [View.canon_unit_zero zeros2]
  simp only [View.ld_unit_zero (S := S10000x64) zeros2]
  rw [payload_eq]
  funext j
  obtain ⟨p, k, rfl⟩ : ∃ (p : Fin 10000) (k : Fin 8), j = ix2 p k := ⟨j 0, j 1, eq_ix2 j⟩
  rw [squash_apply, sideBySide_apply, column_apply]
  unfold edgeMajor score
  refine congrArg logistic (Finset.sum_congr rfl fun b _ => ?_)
  refine congrArg (· * x1 (ix2 p b)) (Finset.sum_congr rfl fun a _ => ?_)
  rw [slab_apply]
  rfl

end Cert.KernelIdeal.Body

end
-- ==== Proof.ArrayValue.lean ====
/-
  The array the kernel's region writes, as one function of the arrays it reads.

  The grid has 50 points. Point t reads edges 10000·t … 10000·t + 9999 — their row vectors from the first array, their
  column vectors from the second — and the whole array of eight matrices, and writes back the 10000×8 block of those
  edges' logistic scores. Each written block is therefore a block of ONE edge-by-relation array over all 500000 edges
  (an edge's score depends on its own two vectors and the matrices only), and the 50 blocks tile that array, block t
  holding the rows of edge ⌊n / 10000⌋ = t. So after the region the output array is that function everywhere.
-/
import proofs.«163795_j6305011990646_2_alg».proof.Proof.BlockValue
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Dedicom
open Idealize.ShloMosaic.Pipeline (Dat)

variable (m : (ℓ : Loc nD τ sig) → Buf (Elt Ideal) ℓ)

/-- The printed index maps over the grid: at point t the two edge windows and the output window are at block t of their
    first axis and block 0 of their second; the matrices' window is at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Edge p of point t's block is edge 10000·t + p of the list. -/
def edgeOf (t : Fin cfg0.N) (p : Fin 10000) : Fin 500000 :=
  ⟨t.val * 10000 + p.val, by have ht : t.val < 50 := lt_of_lt_of_eq t.isLt N_0; have := p.isLt; omega⟩

/-- Point t's block of the row vectors, read at (p, a), is the array at (edge, a). -/
theorem rows_apply (c : Dev nD) (t : Fin cfg0.N) (p : Fin 10000) (a : Fin 64) :
    iblk m c 0 t (ix2 p a) = (V m c main_arg0 : S500000x64.Idx → EReal) (ix2 (edgeOf t p) a) := by
  obtain ⟨e00, e01, -⟩ := idx_facts t
  show V m c main_arg0 (((cfg0.win 0).blk t).view.emb (ix2 p a)) = V m c main_arg0 (ix2 (edgeOf t p) a)
  refine congrArg (V m c main_arg0) (funext fun d => Fin.ext ?_)
  match d with
  | ⟨0, _⟩ => show win0_0.index t (0 : Fin 2) * 10000 + 1 * p.val = t.val * 10000 + p.val; rw [e00]; omega
  | ⟨1, _⟩ => show win0_0.index t (1 : Fin 2) * 64 + 1 * a.val = a.val; rw [e01]; omega

/-- Point t's block of the column vectors, read at (p, b), is the array at (edge, b). -/
theorem cols_apply (c : Dev nD) (t : Fin cfg0.N) (p : Fin 10000) (b : Fin 64) :
    iblk m c 1 t (ix2 p b) = (V m c main_arg1 : S500000x64.Idx → EReal) (ix2 (edgeOf t p) b) := by
  obtain ⟨-, -, e10, e11, -⟩ := idx_facts t
  show V m c main_arg1 (((cfg0.win 1).blk t).view.emb (ix2 p b)) = V m c main_arg1 (ix2 (edgeOf t p) b)
  refine congrArg (V m c main_arg1) (funext fun d => Fin.ext ?_)
  match d with
  | ⟨0, _⟩ => show win0_1.index t (0 : Fin 2) * 10000 + 1 * p.val = t.val * 10000 + p.val; rw [e10]; omega
  | ⟨1, _⟩ => show win0_1.index t (1 : Fin 2) * 64 + 1 * b.val = b.val; rw [e11]; omega

/-- Every point's block of the matrices is the whole array of matrices. -/
theorem mats_eq (c : Dev nD) (t : Fin cfg0.N) : iblk m c 2 t = (V m c main_v8 : S8x64x64.Idx → EReal) := by
  obtain ⟨-, -, -, -, e20, e21, e22, -⟩ := idx_facts t
  funext y
  show V m c main_v8 (((cfg0.win 2).blk t).view.emb y) = V m c main_v8 y
  refine congrArg (V m c main_v8) (funext fun d => Fin.ext ?_)
  match d with
  | ⟨0, _⟩ => show win0_2.index t (0 : Fin 3) * 8 + 1 * (y 0).val = (y 0).val; rw [e20]; omega
  | ⟨1, _⟩ => show win0_2.index t (1 : Fin 3) * 64 + 1 * (y 1).val = (y 1).val; rw [e21]; omega
  | ⟨2, _⟩ => show win0_2.index t (2 : Fin 3) * 64 + 1 * (y 2).val = (y 2).val; rw [e22]; omega

/-- Entry (p, k) of point t's output block sits at (edge, k) of the output array. -/
theorem out_emb (t : Fin cfg0.N) (p : Fin 10000) (k : Fin 8) :
    ((cfg0.win 3).blk t).view.emb (ix2 p k) = (ix2 (edgeOf t p) k : S500000x8.Idx) := by
  obtain ⟨-, -, -, -, -, -, -, e30, e31⟩ := idx_facts t
  refine funext fun d => Fin.ext ?_
  match d with
  | ⟨0, _⟩ => show win0_3.index t (0 : Fin 2) * 10000 + 1 * p.val = t.val * 10000 + p.val; rw [e30]; omega
  | ⟨1, _⟩ => show win0_3.index t (1 : Fin 2) * 8 + 1 * k.val = k.val; rw [e31]; omega

/-- The edge-by-relation array over all edges, from the arrays as the region finds them. -/
abbrev scores (c : Dev nD) : S500000x8.Idx → EReal :=
  edgeMajor (V m c main_arg0 : S500000x64.Idx → EReal) (V m c main_arg1 : S500000x64.Idx → EReal) (V m c main_v8 : S8x64x64.Idx → EReal)

/-- WHAT POINT t WRITES BACK is block t of `scores`. -/
theorem flushed_eq (c : Dev nD) (t : Fin cfg0.N) :
    (dats m 0 c).flushed 3 t = ((cfg0.win 3).blk t).view.read (Elt Ideal) (scores m c) := by
  show (cfg0.win 3).cut (grid0.coords t) ((dats m 0 c).after 3 t) = _
  rw [after0_3]
  refine (congrArg ((cfg0.win 3).cut (grid0.coords t)) (Body.stored_eq (iblk m c 0 t) (iblk m c 1 t) (iblk m c 2 t))).trans ?_
  funext j
  obtain ⟨p, k, rfl⟩ : ∃ (p : Fin 10000) (k : Fin 8), j = ix2 p k := ⟨j 0, j 1, eq_ix2 j⟩
  show edgeMajor (iblk m c 0 t) (iblk m c 1 t) (iblk m c 2 t) (ix2 p k) = scores m c (((cfg0.win 3).blk t).view.emb (ix2 p k))
  rw [out_emb, mats_eq]
  exact congrArg logistic (score_congr _ _ _ _ _ p (edgeOf t p) k (rows_apply m c t p) (cols_apply m c t p))

/-- An index of the output array is in point t's block iff each coordinate is in the block's range on its axis. -/
theorem mem_blk (t : Fin cfg0.N) (i : S500000x8.Idx) :
    i ∈ ((cfg0.win 3).blk t).view.set ↔ ∀ a : Fin 2, win0_3.index t a * S10000x8.size a ≤ (i a).val ∧ (i a).val < win0_3.index t a * S10000x8.size a + S10000x8.size a := by
  show i ∈ ((View.whole main_v9).slice (win0_3.rect t)).set ↔ _
  rw [View.set_slice_whole, Rect.mem_set_unit]
  exact Iff.rfl

/-- Every index of the output array is in some point's block: row n is in the block of point ⌊n / 10000⌋. -/
theorem cover (i : S500000x8.Idx) : ∃ t : Fin cfg0.N, (cfg0.win 3).flush t = true ∧ i ∈ ((cfg0.win 3).blk t).view.set := by
  have hi0 : (i 0).val < 500000 := (i 0).isLt
  have hi1 : (i 1).val < 8 := (i 1).isLt
  let t : Fin cfg0.N := ⟨(i 0).val / 10000, by rw [show cfg0.N = 50 from N_0]; omega⟩
  obtain ⟨-, -, -, -, -, -, -, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e30, ht]; omega
  | ⟨1, _⟩ => show win0_3.index t (1 : Fin 2) * 8 ≤ (i 1).val ∧ (i 1).val < win0_3.index t (1 : Fin 2) * 8 + 8; rw [e31]; omega

/-- THE ARRAY after the region: the logistic score of every edge under every relation. -/
theorem final (c : Dev nD) : (dats m 0 c).arrAt 3 cfg0.N = scores m c :=
  (dats m 0 c).arrAt_eq_of_cover 3 (scores m c) (fun t _ => flushed_eq m c t) cover

end Cert.KernelIdeal.Whole

end
-- ==== Proof.KernelRun.lean ====
/-
  The kernel's program around its region, and its run read back.

  Before the region the host builds the eight scaled matrices: it spreads the diagonals d along the columns, the matrix g
  over the eight relations and the diagonals along the rows of an 8×64×64 array, and multiplies,
  (d(k, a) · g(a, b)) · d(k, b); the change of float format that follows is the identity on the extended reals. The
  region then writes the edge-by-relation array of logistic scores from the two edge arrays and those matrices, and the
  one host line after it transposes that array: the result at (k, n) is the score array at (n, k). So every run ends
  with the result array at the specification's function of the four arguments, the arguments unchanged.
-/
import proofs.«163795_j6305011990646_2_alg».proof.Proof.ArrayValue
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.Dedicom

/-! ## The three spreads, read at (k, a, b) -/

/-- The diagonals spread along the columns: entry (k, a, b) is d(k, a). -/
theorem spread_rows (d : FVec Ideal S8x64 .f32) (k : Fin 8) (a b : Fin 64) :
    broadcastInDim S8x64x64 ![0, 1, 2] bcast_S8x64x1_S8x64x64_0_1_2 (broadcastInDim S8x64x1 ![0, 1] bcast_S8x64_S8x64x1_0_1 d) (ix3 k a b)
      = d (ix2 k a) := by
  rw [broadcastInDim_apply _ bcast_S8x64x1_S8x64x64_0_1_2 _ (ix3 k a b) (ix3 k a (0 : Fin 1)) (fun c => match c with
    | ⟨0, _⟩ => by show k.val = if (8 : Nat) = 1 then 0 else k.val; rw [if_neg (by decide)]
    | ⟨1, _⟩ => by show a.val = if (64 : Nat) = 1 then 0 else a.val; rw [if_neg (by decide)]
    | ⟨2, _⟩ => by show 0 = if (1 : Nat) = 1 then 0 else b.val; rw [if_pos rfl])]
  exact broadcastInDim_apply _ bcast_S8x64_S8x64x1_0_1 d (ix3 k a (0 : Fin 1)) (ix2 k a) (fun c => match c with
    | ⟨0, _⟩ => by show k.val = if (8 : Nat) = 1 then 0 else k.val; rw [if_neg (by decide)]
    | ⟨1, _⟩ => by show a.val = if (64 : Nat) = 1 then 0 else a.val; rw [if_neg (by decide)])

/-- The matrix spread over the relations: entry (k, a, b) is g(a, b). -/
theorem spread_mat (g : FVec Ideal S64x64 .f32) (k : Fin 8) (a b : Fin 64) :
    broadcastInDim S8x64x64 ![0, 1, 2] bcast_S1x64x64_S8x64x64_0_1_2 (broadcastInDim S1x64x64 ![1, 2] bcast_S64x64_S1x64x64_1_2 g) (ix3 k a b)
      = g (ix2 a b) := by
  rw [broadcastInDim_apply _ bcast_S1x64x64_S8x64x64_0_1_2 _ (ix3 k a b) (ix3 (0 : Fin 1) a b) (fun c => match c with
    | ⟨0, _⟩ => by show 0 = if (1 : Nat) = 1 then 0 else k.val; rw [if_pos rfl]
    | ⟨1, _⟩ => by show a.val = if (64 : Nat) = 1 then 0 else a.val; rw [if_neg (by decide)]
    | ⟨2, _⟩ => by show b.val = if (64 : Nat) = 1 then 0 else b.val; rw [if_neg (by decide)])]
  exact broadcastInDim_apply _ bcast_S64x64_S1x64x64_1_2 g (ix3 (0 : Fin 1) a b) (ix2 a b) (fun c => match c with
    | ⟨0, _⟩ => by show a.val = if (64 : Nat) = 1 then 0 else a.val; rw [if_neg (by decide)]
    | ⟨1, _⟩ => by show b.val = if (64 : Nat) = 1 then 0 else b.val; rw [if_neg (by decide)])

/-- The diagonals spread along the rows: entry (k, a, b) is d(k, b). -/
theorem spread_cols (d : FVec Ideal S8x64 .f32) (k : Fin 8) (a b : Fin 64) :
    broadcastInDim S8x64x64 ![0, 1, 2] bcast_S8x1x64_S8x64x64_0_1_2 (broadcastInDim S8x1x64 ![0, 2] bcast_S8x64_S8x1x64_0_2 d) (ix3 k a b)
      = d (ix2 k b) := by
  rw [broadcastInDim_apply _ bcast_S8x1x64_S8x64x64_0_1_2 _ (ix3 k a b) (ix3 k (0 : Fin 1) b) (fun c => match c with
    | ⟨0, _⟩ => by show k.val = if (8 : Nat) = 1 then 0 else k.val; rw [if_neg (by decide)]
    | ⟨1, _⟩ => by show 0 = if (1 : Nat) = 1 then 0 else a.val; rw [if_pos rfl]
    | ⟨2, _⟩ => by show b.val = if (64 : Nat) = 1 then 0 else b.val; rw [if_neg (by decide)])]
  exact broadcastInDim_apply _ bcast_S8x64_S8x1x64_0_2 d (ix3 k (0 : Fin 1) b) (ix2 k b) (fun c => match c with
    | ⟨0, _⟩ => by show k.val = if (8 : Nat) = 1 then 0 else k.val; rw [if_neg (by decide)]
    | ⟨1, _⟩ => by show b.val = if (64 : Nat) = 1 then 0 else b.val; rw [if_neg (by decide)])

/-- The host's text for the matrices, as a function of g and d, is the specification's scaled matrices. -/
theorem scaled_eq (g : FVec Ideal S64x64 .f32) (d : FVec Ideal S8x64 .f32) :
    (truncf .bf16 (mulf (mulf
        (broadcastInDim S8x64x64 ![0, 1, 2] bcast_S8x64x1_S8x64x64_0_1_2 (broadcastInDim S8x64x1 ![0, 1] bcast_S8x64_S8x64x1_0_1 d))
        (broadcastInDim S8x64x64 ![0, 1, 2] bcast_S1x64x64_S8x64x64_0_1_2 (broadcastInDim S1x64x64 ![1, 2] bcast_S64x64_S1x64x64_1_2 g)))
        (broadcastInDim S8x64x64 ![0, 1, 2] bcast_S8x1x64_S8x64x64_0_1_2 (broadcastInDim S8x1x64 ![0, 2] bcast_S8x64_S8x1x64_0_2 d)))
      bitsLt_bf16_f32 : FVec Ideal S8x64x64 .bf16) = relMatrix g d := by
  funext j
  obtain ⟨k, a, b, rfl⟩ : ∃ (k : Fin 8) (a b : Fin 64), j = ix3 k a b := ⟨j 0, j 1, j 2, eq_ix3 j⟩
  rw [truncf_apply, mulf_apply, mulf_apply, spread_rows, spread_mat, spread_cols]
  rfl

variable (m : (ℓ : Loc nD τ sig) → Buf (Elt Ideal) ℓ) (ρ : Dev nD → PrngReg)

/-- The matrices as the region finds them are the specification's scaled matrices of the arguments g and d. -/
theorem mats_value (c : Dev nD) :
    (V m c main_v8 : S8x64x64.Idx → EReal)
      = relMatrix (m ((c.tc : Thread nD τ).loc main_arg2)) (m ((c.tc : Thread nD τ).loc main_arg3)) := by
  refine Eq.trans ?_ (scaled_eq (m ((c.tc : Thread nD τ).loc main_arg2)) (m ((c.tc : Thread nD τ).loc main_arg3)))
  show StableHlo.after hostOps0 (fun b => m (c, b)) (Proc.devRef .tc main_v8) = _
  after_results

/-- The result the host's last line leaves: the transpose of the region's array, which is the specification. -/
theorem tail_value (c : Dev nD) :
    (Pipeline.afterTail₀ cfgs (dats m) 0 (V0 m) [hostOps1] c main_v10 : S8x500000.Idx → EReal)
      = result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v9)
      = (dats m 0 c).arrAt 3 cfg0.N from Pipeline.withArrays_arr spec0 launch0.win.arr_inj c _ _ 3, final m c]
  funext j
  obtain ⟨k, n, rfl⟩ : ∃ (k : Fin 8) (n : Fin 500000), j = ix2 k n := ⟨j 0, j 1, eq_ix2 j⟩
  rw [transpose_ix2_apply]
  show logistic (score (V m c main_arg0 : S500000x64.Idx → EReal) (V m c main_arg1 : S500000x64.Idx → EReal)
      (V m c main_v8 : S8x64x64.Idx → EReal) n k) = _
  rw [mats_value, V_main_arg0, V_main_arg1]
  rfl

/-- THE RUN, read: every weakly fair execution ends with the result array at the specification's function of the four
    arguments and the arguments unchanged. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference's result is the specification.

  The reference treats the eight relations one after the other, each time in the same words: slice row k out of the
  8×64 array of diagonals and flatten it to a vector d_k; spread d_k down the columns and across the rows of a 64×64
  matrix and multiply, (d_k(a) · g(a, b)) · d_k(b); multiply the edge rows by that matrix; multiply entrywise by the
  edge columns; sum along axis 1 from zero; negate, exponentiate, add one, divide one by it. The eight vectors of
  500000 entries are then stacked as the rows of the result. `relHost` is that one relation's text as a function of the
  vector d_k, read at an edge once for all relations; the stage the generated module names `val_main_v144` is, by
  unfolding, the stack of `relHost` at the eight slices.
-/
import proofs.«163795_j6305011990646_2_alg».proof.Proof.Gen.ReferenceIdeal.Read
import proofs.«163795_j6305011990646_2_alg».proof.Proof.LibRowScore
import proofs.«163795_j6305011990646_2_alg».proof.Proof.LibConcatUnit
import proofs.«163795_j6305011990646_2_alg».proof.Proof.Spec
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Dedicom

/-! ## Row k of the diagonals, as a vector -/

/-- Row k of the 8×64 array is a 1×64 slice of it. -/
theorem diag_slices (k : Fin 8) : S8x64.Slices ![k.val, 0] S1x64 := ⟨rfl, fun a => by
  have hk := k.isLt
  match a with
  | ⟨0, _⟩ => show k.val + 1 ≤ 8; omega
  | ⟨1, _⟩ => show 0 + 64 ≤ 64; omega⟩

/-- The k-th diagonal: row k sliced out and flattened. -/
def diag (x3 : FVec Ideal S8x64 .f32) (k : Fin 8) : FVec Ideal S64 .f32 :=
  shapeCast _ (extractStridedSlice S1x64 ![k.val, 0] x3 (diag_slices k)) shapeCasts_S1x64_S64

theorem diag_apply (x3 : FVec Ideal S8x64 .f32) (k : Fin 8) (a : Fin 64) :
    diag x3 k (ix1 a) = x3 (ix2 k a) := by
  unfold diag
  rw [shapeCast_1a_a_apply]
  refine extractStridedSlice_apply _ x3 (diag_slices k) _ _ fun c => ?_
  match c with
  | ⟨0, _⟩ => show k.val = k.val + 0; omega
  | ⟨1, _⟩ => show a.val = 0 + a.val; omega

/-! ## One relation -/

/-- One relation's text, from its diagonal `dk`. -/
def relHost (x0 x1 : FVec Ideal S500000x64 .f32) (x2 : FVec Ideal S64x64 .f32) (dk : FVec Ideal S64 .f32) : FVec Ideal S500000 .f32 :=
  Host.divf (broadcastInDim S500000 ![] bcast_S_S500000 (constant (F := Ideal) S_ .f32 0x3F800000#32))
    (addf (broadcastInDim S500000 ![] bcast_S_S500000 (constant (F := Ideal) S_ .f32 0x3F800000#32))
      (Host.exp (Host.negf (Host.reduceAdd
        (mulf (Host.dotGeneral dot_S500000x64_S64x64_S500000x64_1_0_0_1_n_n none x0
          (mulf (mulf (broadcastInDim S64x64 ![0, 1] bcast_S64x1_S64x64_0_1 (broadcastInDim S64x1 ![0] bcast_S64_S64x1_0 dk)) x2)
            (broadcastInDim S64x64 ![0, 1] bcast_S1x64_S64x64_0_1 (broadcastInDim S1x64 ![1] bcast_S64_S1x64_1 dk)))) x1)
        (constant (F := Ideal) S_ .f32 0x00000000#32) reducesTo_S500000x64_S500000_d1 h_S_))))

/-- A vector spread down the columns: entry (a, b) is the vector's entry a. -/
theorem down_apply (dk : FVec Ideal S64 .f32) (a b : Fin 64) :
    broadcastInDim S64x64 ![0, 1] bcast_S64x1_S64x64_0_1 (broadcastInDim S64x1 ![0] bcast_S64_S64x1_0 dk) (ix2 a b) = dk (ix1 a) := by
  rw [broadcastInDim_apply _ bcast_S64x1_S64x64_0_1 _ (ix2 a b) (ix2 a (0 : Fin 1)) (fun c => match c with
    | ⟨0, _⟩ => by show a.val = if (64 : Nat) = 1 then 0 else a.val; rw [if_neg (by decide)]
    | ⟨1, _⟩ => by show 0 = if (1 : Nat) = 1 then 0 else b.val; rw [if_pos rfl])]
  exact broadcastInDim_apply _ bcast_S64_S64x1_0 dk (ix2 a (0 : Fin 1)) (ix1 a) (fun c => match c with
    | ⟨0, _⟩ => by show a.val = if (64 : Nat) = 1 then 0 else a.val; rw [if_neg (by decide)])

/-- A vector spread across the rows: entry (a, b) is the vector's entry b. -/
theorem across_apply (dk : FVec Ideal S64 .f32) (a b : Fin 64) :
    broadcastInDim S64x64 ![0, 1] bcast_S1x64_S64x64_0_1 (broadcastInDim S1x64 ![1] bcast_S64_S1x64_1 dk) (ix2 a b) = dk (ix1 b) := by
  rw [broadcastInDim_apply _ bcast_S1x64_S64x64_0_1 _ (ix2 a b) (ix2 (0 : Fin 1) b) (fun c => match c with
    | ⟨0, _⟩ => by show 0 = if (1 : Nat) = 1 then 0 else a.val; rw [if_pos rfl]
    | ⟨1, _⟩ => by show b.val = if (64 : Nat) = 1 then 0 else b.val; rw [if_neg (by decide)])]
  exact broadcastInDim_apply _ bcast_S64_S1x64_1 dk (ix2 (0 : Fin 1) b) (ix1 b) (fun c => match c with
    | ⟨0, _⟩ => by show b.val = if (64 : Nat) = 1 then 0 else b.val; rw [if_neg (by decide)])

/-- One over one plus the exponential of the negation, entrywise, is the logistic function. -/
theorem host_logistic (s : FVec Ideal S500000 .f32) (i : S500000.Idx) :
    Host.divf (broadcastInDim S500000 ![] bcast_S_S500000 (constant (F := Ideal) S_ .f32 0x3F800000#32))
      (addf (broadcastInDim S500000 ![] bcast_S_S500000 (constant (F := Ideal) S_ .f32 0x3F800000#32)) (Host.exp (Host.negf s))) i
      = logistic (s i) := rfl

/-- One relation at edge n: the logistic of ∑_b (∑_a x0(n, a) · ((dk(a) · x2(a, b)) · dk(b))) · x1(n, b). -/
theorem relHost_apply (x0 x1 : FVec Ideal S500000x64 .f32) (x2 : FVec Ideal S64x64 .f32)
    (dk : FVec Ideal S64 .f32) (n : Fin 500000) :
    relHost x0 x1 x2 dk (ix1 n)
      = logistic (∑ b : Fin 64, (∑ a : Fin 64, x0 (ix2 n a) * (dk (ix1 a) * x2 (ix2 a b) * dk (ix1 b))) * x1 (ix2 n b)) := by
  unfold relHost
  rw [host_logistic]
  rw [RowScore.host_sum_apply dot_S500000x64_S64x64_S500000x64_1_0_0_1_n_n rfl none x0 _ x1 reducesTo_S500000x64_S500000_d1 (by decide) h_S_ n]
  refine congrArg logistic ?_
  unfold RowScore.rowScore
  refine Finset.sum_congr rfl fun b _ => ?_
  refine congrArg (· * x1 (ix2 n b)) (Finset.sum_congr rfl fun a _ => ?_)
  rw [mulf_apply, mulf_apply, down_apply, across_apply]

/-! ## The eight relations stacked -/

/-- Relation k's vector of 500000 entries as a 1×500000 row. -/
def rowOf (x0 x1 : FVec Ideal S500000x64 .f32) (x2 : FVec Ideal S64x64 .f32) (x3 : FVec Ideal S8x64 .f32) (k : Fin 8) :
    FVec Ideal S1x500000 .f32 :=
  broadcastInDim S1x500000 ![1] bcast_S500000_S1x500000_1 (relHost x0 x1 x2 (diag x3 k))

theorem rowOf_apply (x0 x1 : FVec Ideal S500000x64 .f32) (x2 : FVec Ideal S64x64 .f32) (x3 : FVec Ideal S8x64 .f32) (k : Fin 8)
    (n : Fin 500000) :
    rowOf x0 x1 x2 x3 k (ix2 (0 : Fin 1) n) = relHost x0 x1 x2 (diag x3 k) (ix1 n) :=
  broadcastInDim_apply _ bcast_S500000_S1x500000_1 _ (ix2 (0 : Fin 1) n) (ix1 n) (fun c => match c with
    | ⟨0, _⟩ => by show n.val = if (500000 : Nat) = 1 then 0 else n.val; rw [if_neg (by decide)])

set_option maxRecDepth 16384 in
/-- The reference's last stage is the stack of the eight relations' rows: its definitions unfolded. -/
theorem stacked_eq (x0 x1 : (⟨S500000x64, .f32⟩ : BufTy).Contents (Elt Ideal)) (x2 : (⟨S64x64, .f32⟩ : BufTy).Contents (Elt Ideal))
    (x3 : (⟨S8x64, .f32⟩ : BufTy).Contents (Elt Ideal)) :
    val_main_v144 (F := Ideal) x0 x1 x2 x3
      = concatenate S8x500000 0 [⟨S1x500000, rowOf x0 x1 x2 x3 0⟩, ⟨S1x500000, rowOf x0 x1 x2 x3 1⟩, ⟨S1x500000, rowOf x0 x1 x2 x3 2⟩, ⟨S1x500000, rowOf x0 x1 x2 x3 3⟩, ⟨S1x500000, rowOf x0 x1 x2 x3 4⟩, ⟨S1x500000, rowOf x0 x1 x2 x3 5⟩, ⟨S1x500000, rowOf x0 x1 x2 x3 6⟩, ⟨S1x500000, rowOf x0 x1 x2 x3 7⟩] concatenates_S1x500000_S1x500000_S1x500000_S1x500000_S1x500000_S1x500000_S1x500000_S1x500000_S8x500000_d0 := rfl

/-- THE REFERENCE: its last stage is the specification's function of the four arguments. -/
theorem stage_eq (x0 x1 : (⟨S500000x64, .f32⟩ : BufTy).Contents (Elt Ideal)) (x2 : (⟨S64x64, .f32⟩ : BufTy).Contents (Elt Ideal))
    (x3 : (⟨S8x64, .f32⟩ : BufTy).Contents (Elt Ideal)) :
    val_main_v144 (F := Ideal) x0 x1 x2 x3 = result x0 x1 x2 x3 := by
  rw [stacked_eq]
  funext j
  obtain ⟨k, n, rfl⟩ : ∃ (k : Fin 8) (n : Fin 500000), j = ix2 k n := ⟨j 0, j 1, eq_ix2 j⟩
  rw [concat8_rows_apply (rowOf x0 x1 x2 x3) _ k n, rowOf_apply, relHost_apply]
  unfold result score relMatrix
  refine congrArg logistic (Finset.sum_congr rfl fun b _ => ?_)
  refine congrArg (· * x1 (ix2 n b)) (Finset.sum_congr rfl fun a _ => ?_)
  rw [diag_apply, diag_apply]

end Cert.ReferenceIdeal.RefValue

end
-- ==== Proof.lean ====
/-
  The proof of `Cert.Claim`: the kernel and its reference compute one function on the extended reals.

  For each of eight relations k and each of 500000 edges n both programs compute
      1 / (1 + exp (−∑_b (∑_a row(n, a) · ((d(k, a) · g(a, b)) · d(k, b))) · col(n, b))),
  the logistic of the edge's bilinear score through the interaction matrix g scaled by the k-th diagonal on both sides
  (`Cert.Dedicom.result`, Proof/Spec.lean). The kernel forms all eight scaled matrices on the host, scores blocks of
  10000 edges against them in its region (relation by relation: a matrix product, an entrywise product, a lane sum),
  lays the eight columns side by side, applies the logistic function and transposes the edge-by-relation array at the
  end; the reference treats the relations one after the other over all edges and stacks the eight result vectors. The
  sums are the same sums in the same order on both sides, so no law of the extended reals beyond 0 − x = −x and
  0 + x = x is used, and the inputs' finiteness is not needed.

  Proof/BlockValue.lean reads the block the kernel body stores; Proof/ArrayValue.lean assembles the blocks into the
  region's output array; Proof/KernelRun.lean reads the host lines around the region and states the kernel's run;
  Proof/RefValue.lean shows the reference's last stage is the same function. The three frames are the generated frame
  runs (the reference's its generated run with the result dropped); the idealization rewrote nothing.
-/
import proofs.«163795_j6305011990646_2_alg».proof.Defs
import proofs.«163795_j6305011990646_2_alg».proof.Proof.Gen.Kernel
import proofs.«163795_j6305011990646_2_alg».proof.Proof.Gen.Kernel.Skeleton
import proofs.«163795_j6305011990646_2_alg».proof.Proof.Gen.Kernel.Launch
import proofs.«163795_j6305011990646_2_alg».proof.Proof.Gen.Kernel.Points
import proofs.«163795_j6305011990646_2_alg».proof.Proof.Gen.Kernel.Frame
import proofs.«163795_j6305011990646_2_alg».proof.Proof.Gen.KernelIdeal
import proofs.«163795_j6305011990646_2_alg».proof.Proof.Gen.KernelIdeal.Skeleton
import proofs.«163795_j6305011990646_2_alg».proof.Proof.Gen.KernelIdeal.Launch
import proofs.«163795_j6305011990646_2_alg».proof.Proof.Gen.KernelIdeal.Points
import proofs.«163795_j6305011990646_2_alg».proof.Proof.Gen.KernelIdeal.Frame
import proofs.«163795_j6305011990646_2_alg».proof.Proof.Gen.ReferenceIdeal
import proofs.«163795_j6305011990646_2_alg».proof.Proof.Gen.ReferenceIdeal.Run
import proofs.«163795_j6305011990646_2_alg».proof.Proof.Gen.ReferenceIdeal.Read
import proofs.«163795_j6305011990646_2_alg».proof.Proof.Gen.Pre_finite_inputs
import proofs.«163795_j6305011990646_2_alg».proof.Proof.KernelRun
import proofs.«163795_j6305011990646_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were: its generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at the specification's
    function of those arguments: the kernel by its run read back, the reference because its last stage is that function. -/
theorem algebraic : Cert.algebraic_KernelIdeal_ReferenceIdeal := by
  intro m ρ m' ρ' _ hagree
  refine ⟨fun c => Cert.Dedicom.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v144_eq, Cert.ReferenceIdeal.RefValue.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
